-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4x4096x4096, .f32⟩
  | .hbm, ⟨4, _⟩ => ⟨S1x1x4096, .f32⟩
  | .hbm, ⟨5, _⟩ => ⟨S4x4096x4096, .f32⟩
  | .hbm, ⟨6, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_0_01_1_n_n_wf : DotDims.WF S4x4096x4096 S4096x4096 S4x4096x4096 [2] [0] [0, 1] [1] [] []

variable [Facts₀]

def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf

class Facts : Prop extends Facts₀ where

variable [Facts]
-- ==== Proof.Pieces.lean ====
/-
  What each control case of the body leaves behind, as values.

  The body keeps a running [1024, 1024] accumulator in a scratch buffer.  At the first step of a contraction run it
  stores zeros and then adds the step's partial product; at every later step it adds the step's partial product to
  what the step before left; at the last step it also stores the accumulator times the scale row into the output
  block.  The three control cases are read back here as the body's pure terms: the accumulator after a
  step is `acc + a_blk · b_blk` (with `acc` the zero block at a first step), and the output block at a last step
  is that sum times the broadcast scale row.
-/
import proofs.«171653_j80290118632068_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A later step that is not the last: the accumulator holding `xs` is left at `xs + a_blk · b_blk`. -/
theorem acc_B (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x512 .f32) (x1 : Vec F S512x1024 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread,
    View.ld_unit_zero (S := S1024x512) hz, View.ld_unit_zero (S := S512x1024) hz, View.ld_unit_zero (S := S1024x1024) hz]

/-- The last step: the accumulator is left at `xs + a_blk · b_blk` as at any later step, -/
theorem acc_C (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S512x1024 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread,
    View.ld_unit_zero (S := S1024x512) hz, View.ld_unit_zero (S := S512x1024) hz, View.ld_unit_zero (S := S1024x1024) hz,
    View.ld_unit_zero (S := S1x1024) hz]

/-- and the output block is that accumulator times the scale row broadcast down the rows. -/
theorem out_C (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S512x1024 .f32) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x512) hz, View.ld_unit_zero (S := S512x1024) hz, View.ld_unit_zero (S := S1024x1024) hz,
    View.ld_unit_zero (S := S1x1024) hz]

/-- A first step: zeros are stored, read back, and the step's partial product added: `0 + a_blk · b_blk`. -/
theorem acc_A (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x512 .f32) (x1 : Vec F S512x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread,
    View.ld_unit_zero (S := S1024x512) hz, View.ld_unit_zero (S := S512x1024) hz, View.ld_unit_zero (S := S1024x1024) hz,
    View.ld_unit_zero (S := S1x1024) hz]

end Cert.KernelIdeal.Pieces

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«171653_j80290118632068_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Payload.lean ====
/-
  The body's three pure terms read at an entry, on the extended reals.

  The zero block reads 0 everywhere.  One accumulation step reads, at entry (p, q), the accumulator's entry plus
  the partial product `∑ kk < 512, a_blk (p, kk) * b_blk (kk, q)` (the change of float format before the matrix
  unit is the identity on the extended reals, and the matrix unit starts from the zero constant).  The output block
  reads the accumulator's entry times the scale row's entry of the same column.
-/
import proofs.«171653_j80290118632068_1_alg».proof.Proof.Gen.KernelIdeal.Skeleton
import proofs.«171653_j80290118632068_1_alg».proof.Proof.LibDotRecord
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The zero block at an entry. -/
theorem zero_apply (p q : Fin 1024) : k0_pay1 (F := Ideal) (ix2 p q) = 0 := by
  unfold k0_pay1
  rw [shapeCast_self]
  exact Ideal.ofBits_zero_f32

/-- One accumulation step at an entry: the accumulator's entry plus the partial product over the 512 contracted
    coordinates of the two blocks. -/
theorem step_apply (x0 : Vec Ideal S1024x512 .f32) (x1 : Vec Ideal S512x1024 .f32) (xs : Vec Ideal S1024x1024 .f32)
    (p q : Fin 1024) :
    k0_pay2 x0 x1 xs (ix2 p q) = xs (ix2 p q) + ∑ kk : Fin 512, x0 (ix2 p kk) * x1 (ix2 kk q) := by
  unfold k0_pay2
  rw [shapeCast_self, shapeCast_self, addf_apply]
  refine congrArg (xs (ix2 p q) + ·) ?_
  exact DotRecord.matmul_zero_apply (M := 1024) (K := 512) (N := 1024)
    dot_S1024x512_S512x1024_S1024x1024_1_0_0_1_n_n rfl rfl rfl rfl rfl rfl _ _ none p q

/-- The output block at an entry: the accumulator's entry times the scale row's entry of the same column. -/
theorem scale_apply (acc : Vec Ideal S1024x1024 .f32) (row : Vec Ideal S1x1024 .f32) (p q : Fin 1024) :
    k0_pay3 acc row (ix2 p q) = acc (ix2 p q) * row (ix2 (0 : Fin 1) q) := by
  unfold k0_pay3
  rw [shapeCast_self, mulf_apply]
  refine congrArg (acc (ix2 p q) * ·) ?_
  exact DotRecord.broadcastTo_1b_ab_apply (a := 1024) (b := 1024) row broadcasts_S1x1024_S1024x1024 p q

end Cert.KernelIdeal.Payload

end
-- ==== Proof.Fold.lean ====
/-
  The accumulator over a contraction run is a fold, and at an entry a finite sum.

  The 512 grid points come in runs of 8 consecutive points (one run per output block).  At the first point of a
  run the accumulator is reset: it holds `0 + P` with `P` that point's partial product.  At each later point
  it holds what the point before left plus that point's partial product.  At the last point of a run the output
  block is the accumulator times the scale row.  So after the point at offset `j` of the run starting at `b` the
  accumulator's entry `i` is `0 + ∑ s ≤ j, P (b + s) i`, where
  `P n i = ∑ kk < 512, a_blk n (i₀, kk) * b_blk n (kk, i₁)`.
-/
import proofs.«171653_j80290118632068_1_alg».proof.Proof.Pieces
import proofs.«171653_j80290118632068_1_alg».proof.Proof.Payload
import Idealize.ShloMosaic.Lib.Pipeline.Value

noncomputable section

namespace Cert.KernelIdeal.Fold

open Idealize.ShloMosaic Idealize.ShloMosaic.TcCoe Idealize.SL.Sem Idealize.ShloMosaic.ValueIdx
open Cert.KernelIdeal Cert.KernelIdeal.Gen

section AnyValues

variable {F : FTy → Type} [FloatOps F]
variable (m : (ℓ : Loc nD τ sig) → Buf (Elt F) ℓ)

/-- The three input blocks at point `n`, as vectors of their literal shapes. -/
def lhsBlk (c : Dev nD) (n : ℕ) (h : n < cfg0.N) : Vec F S1024x512 .f32 := iblk m c 0 ⟨n, h⟩
def rhsBlk (c : Dev nD) (n : ℕ) (h : n < cfg0.N) : Vec F S512x1024 .f32 := iblk m c 1 ⟨n, h⟩
def rowBlk (c : Dev nD) (n : ℕ) (h : n < cfg0.N) : Vec F S1x1024 .f32 := iblk m c 2 ⟨n, h⟩

/-- The accumulator after the first point of a run: the step applied to the zero block. -/
def first (c : Dev nD) (n : ℕ) (h : n < cfg0.N) : Vec F S1024x1024 .f32 :=
  k0_pay2 (lhsBlk m c n h) (rhsBlk m c n h) (k0_pay1 (F := F))

/-- The accumulator after a later point, from what the point before left. -/
def next (c : Dev nD) (n : ℕ) (h : n < cfg0.N) (acc : Vec F S1024x1024 .f32) : Vec F S1024x1024 .f32 :=
  k0_pay2 (lhsBlk m c n h) (rhsBlk m c n h) acc

/-- At the first point of a run the accumulator is reset. -/
theorem acc_first (c : Dev nD) (n : ℕ) (h : n < cfg0.N) (h0 : n % 8 = 0) :
    (outsAt0 m c n h).2 = first m c n h := by
  have h1 : ¬n % 8 = 7 := by omega
  rw [outsAt0_A m c ⟨n, h⟩ h0 h1]
  dsimp only
  exact Pieces.acc_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
      ((hcond0_0 ⟨n, h⟩).mpr h0) (fun hh => h1 ((hcond0_1 ⟨n, h⟩).mp hh))
      (iblk m c 0 ⟨n, h⟩) (iblk m c 1 ⟨n, h⟩) (iblk m c 2 ⟨n, h⟩)

/-- At every other point it steps from what the point before left (the last point of a run included). -/
theorem acc_next (c : Dev nD) (n : ℕ) (h : n + 1 < cfg0.N) (h0 : ¬(n + 1) % 8 = 0) :
    (outsAt0 m c (n + 1) h).2 = next m c (n + 1) h (outsAt0 m c n (Nat.lt_of_succ_lt h)).2 := by
  by_cases h1 : (n + 1) % 8 = 7
  · rw [outsAt0_C m c ⟨n + 1, h⟩ h0 h1]
    dsimp only
    exact Pieces.acc_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
        (fun hh => h0 ((hcond0_0 ⟨n + 1, h⟩).mp hh)) ((hcond0_1 ⟨n + 1, h⟩).mpr h1)
        (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact Pieces.acc_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
        (fun hh => h0 ((hcond0_0 ⟨n + 1, h⟩).mp hh)) (fun hh => h1 ((hcond0_1 ⟨n + 1, h⟩).mp hh))
        (iblk m c 0 ⟨n + 1, h⟩) (iblk m c 1 ⟨n + 1, h⟩) (iblk m c 2 ⟨n + 1, h⟩) (outsAt0 m c n (Nat.lt_of_succ_lt h)).2

/-- So at offset `j` of the run starting at `8 * r` the accumulator is the fold over the run up to there. -/
theorem acc_run (c : Dev nD) (r j : ℕ) (hj : j < 8) (h : 8 * r + j < cfg0.N) :
    (outsAt0 m c (8 * r + j) h).2 = Pipeline.accAt (first m c) (next m c) (8 * r) j h :=
  Pipeline.eq_accAt (fun n h => (outsAt0 m c n h).2) 8 (first m c) (next m c)
    (acc_first m c) (acc_next m c) r j hj h

/-- At the last point of a run the output block is the accumulator times the scale row. -/
theorem out_last (c : Dev nD) (t : Fin cfg0.N) (h7 : t.val % 8 = 7) :
    (outsAt0 m c t.val t.isLt).1 = k0_pay3 (outsAt0 m c t.val t.isLt).2 (rowBlk m c t.val t.isLt) := by
  have h0 : ¬t.val % 8 = 0 := by omega
  rw [outsAt0_C m c t h0 h7]
  dsimp only
  rw [Pieces.acc_C (F := F) c (grid0.coords t) (ms0_0 t) (hs0_0 t) (ms0_1 t) (hs0_1 t) (ms0_2 t) (hs0_2 t) (ms0_3 t) (hs0_3 t) scM0_0 (Memref.isWhole_whole _)
    (fun hh => h0 ((hcond0_0 t).mp hh)) ((hcond0_1 t).mpr h7)
    (iblk m c 0 t) (iblk m c 1 t) (iblk m c 2 t) (outsAt0 m c (t.val - 1) (Nat.lt_of_le_of_lt (Nat.sub_le _ _) t.isLt)).2]
  exact Pieces.out_C (F := F) c (grid0.coords t) (ms0_0 t) (hs0_0 t) (ms0_1 t) (hs0_1 t) (ms0_2 t) (hs0_2 t) (ms0_3 t) (hs0_3 t) scM0_0 (Memref.isWhole_whole _)
    (fun hh => h0 ((hcond0_0 t).mp hh)) ((hcond0_1 t).mpr h7)
    (iblk m c 0 t) (iblk m c 1 t) (iblk m c 2 t) (outsAt0 m c (t.val - 1) (Nat.lt_of_le_of_lt (Nat.sub_le _ _) t.isLt)).2

end AnyValues

section ExtendedReals

variable (m : (ℓ : Loc nD τ sig) → Buf (Elt Ideal) ℓ)

/-- Point `n`'s partial product at entry `i` (0 past the grid, where it is never used). -/
def partialAt (c : Dev nD) (n : ℕ) (i : S1024x1024.Idx) : EReal :=
  if h : n < cfg0.N then
    ∑ kk : Fin 512, lhsBlk (F := Ideal) m c n h (ix2 (i 0) kk) * rhsBlk (F := Ideal) m c n h (ix2 kk (i 1))
  else 0

/-- The fold at an entry: 0 plus the partial products of the run's points so far. -/
theorem fold_apply (c : Dev nD) (b j : ℕ) (hj : j ≤ 7) (h : b + j < cfg0.N) (i : S1024x1024.Idx) :
    Pipeline.accAt (first (F := Ideal) m c) (next (F := Ideal) m c) b j h i
      = 0 + ∑ s ∈ Finset.range (j + 1), partialAt m c (b + s) i := by
  refine Pipeline.accAt_add_apply (ι := S1024x1024.Idx) (β := EReal) (first (F := Ideal) m c) (next (F := Ideal) m c)
    (fun _ => 0) (partialAt m c) b 7 (fun hb i => ?_) (fun n hn acc i _ _ => ?_) j hj h i
  · obtain ⟨p, q, rfl⟩ : ∃ (p q : Fin 1024), i = ix2 p q := ⟨i 0, i 1, eq_ix2 i⟩
    unfold first partialAt
    rw [dif_pos hb]
    refine (Payload.step_apply (lhsBlk (F := Ideal) m c b hb) (rhsBlk (F := Ideal) m c b hb) (k0_pay1 (F := Ideal)) p q).trans ?_
    rw [Payload.zero_apply]
  · obtain ⟨p, q, rfl⟩ : ∃ (p q : Fin 1024), i = ix2 p q := ⟨i 0, i 1, eq_ix2 i⟩
    unfold next partialAt
    rw [dif_pos hn]
    exact Payload.step_apply (lhsBlk (F := Ideal) m c n hn) (rhsBlk (F := Ideal) m c n hn) acc p q

/-- After the last point of a run the accumulator's entry is 0 plus the run's 8 partial products. -/
theorem acc_last (c : Dev nD) (t : ℕ) (ht : t < cfg0.N) (h7 : t % 8 = 7) (i : S1024x1024.Idx) :
    (outsAt0 m c t ht).2 i = 0 + ∑ s ∈ Finset.range 8, partialAt m c (8 * (t / 8) + s) i := by
  have hb : 8 * (t / 8) + 7 < cfg0.N := by omega
  have same : ∀ (u : ℕ) (hu : u < cfg0.N), u = t → (outsAt0 m c u hu).2 = (outsAt0 m c t ht).2 :=
    fun u hu e => by subst e; rfl
  exact (congrFun (same _ hb (by omega)).symm i).trans
    ((congrFun (acc_run (F := Ideal) m c (t / 8) 7 (by decide) hb) i).trans
      (fold_apply m c (8 * (t / 8)) 7 (le_refl 7) hb i))

end ExtendedReals

end Cert.KernelIdeal.Fold

end
-- ==== Proof.Blocks.lean ====
/-
  Where the windows' blocks sit in their arrays, and what the host lines before the region leave.

  The grid is [16, 4, 8]; point `t` has row-block `t / 32`, column-block `t / 8 % 4` and contraction run `t % 8`.
  The left operand's block at `t` is rows `(t / 32) * 1024 …` and columns `(t % 8) * 512 …` of the flattened
  [16384, 4096] matrix; the right operand's block is rows `(t % 8) * 512 …` and columns `(t / 8 % 4) * 1024 …` of
  the [4096, 4096] matrix; the scale row's block is columns `(t / 8 % 4) * 1024 …` of the [1, 4096] row; the output
  block is rows `(t / 32) * 1024 …`, columns `(t / 8 % 4) * 1024 …`.
  Before the region the host flattens `x` to [16384, 4096] (row `b * 4096 + r` is `x (b, r, ·)`) and views the
  scale vector as a [1, 4096] row.
-/
import proofs.«171653_j80290118632068_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps at point `t`, decided once over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left operand's block at `t`, entry (p, kk): row `(t / 32) * 1024 + p`, column `(t % 8) * 512 + kk`. -/
theorem lhs_block (c : Dev nD) (t : Fin cfg0.N) (p : Fin 1024) (kk : Fin 512) (r : Fin 16384) (h : Fin 4096)
    (hr : r.val = t.val / 32 * 1024 + p.val) (hh : h.val = t.val % 8 * 512 + kk.val) :
    (iblk m c 0 t : Vec F S1024x512 .f32) (ix2 p kk) = V m c main_v0 (ix2 r h) := by
  obtain ⟨e0, e1, -⟩ := idx_facts t
  show V m c main_v0 (((cfg0.win 0).blk t).view.emb (ix2 p kk)) = V m c main_v0 (ix2 r h)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 512 + 1 * kk.val = h.val; omega

/-- The right operand's block at `t`, entry (kk, q): row `(t % 8) * 512 + kk`, column `(t / 8 % 4) * 1024 + q`. -/
theorem rhs_block (c : Dev nD) (t : Fin cfg0.N) (kk : Fin 512) (q : Fin 1024) (h : Fin 4096) (n : Fin 4096)
    (hh : h.val = t.val % 8 * 512 + kk.val) (hn : n.val = t.val / 8 % 4 * 1024 + q.val) :
    (iblk m c 1 t : Vec F S512x1024 .f32) (ix2 kk q) = V m c main_arg1 (ix2 h n) := by
  obtain ⟨-, -, e0, e1, -⟩ := idx_facts t
  show V m c main_arg1 (((cfg0.win 1).blk t).view.emb (ix2 kk q)) = V m c main_arg1 (ix2 h n)
  refine congrArg (V m c main_arg1) (funext fun a => Fin.ext ?_)
  match a with
  | ⟨0, _⟩ => show win0_1.index t (0 : Fin 2) * 512 + 1 * kk.val = h.val; omega
  | ⟨1, _⟩ => show win0_1.index t (1 : Fin 2) * 1024 + 1 * q.val = n.val; omega

/-- The scale row's block at `t`, entry (0, q): column `(t / 8 % 4) * 1024 + q`. -/
theorem scale_block (c : Dev nD) (t : Fin cfg0.N) (q : Fin 1024) (n : Fin 4096)
    (hn : n.val = t.val / 8 % 4 * 1024 + q.val) :
    (iblk m c 2 t : Vec F S1x1024 .f32) (ix2 (0 : Fin 1) q) = V m c main_v1 (ix2 (0 : Fin 1) n) := by
  obtain ⟨-, -, -, -, e0, e1, -⟩ := idx_facts t
  show V m c main_v1 (((cfg0.win 2).blk t).view.emb (ix2 (0 : Fin 1) q)) = V m c main_v1 (ix2 (0 : Fin 1) n)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

/-- The output block at `t`, entry (p, q), sits at row `(t / 32) * 1024 + p`, column `(t / 8 % 4) * 1024 + q`. -/
theorem out_block_emb (t : Fin cfg0.N) (p q : Fin 1024) (r : Fin 16384) (n : Fin 4096)
    (hr : r.val = t.val / 32 * 1024 + p.val) (hn : n.val = t.val / 8 % 4 * 1024 + q.val) :
    ((cfg0.win 3).blk t).view.emb (ix2 p q) = (ix2 r n : S16384x4096.Idx) := by
  obtain ⟨-, -, -, -, -, -, e0, e1⟩ := idx_facts t
  refine funext fun a => Fin.ext ?_
  match a with
  | ⟨0, _⟩ => show win0_3.index t (0 : Fin 2) * 1024 + 1 * p.val = r.val; omega
  | ⟨1, _⟩ => show win0_3.index t (1 : Fin 2) * 1024 + 1 * q.val = n.val; omega

/-- The region finds the flattened `x` in the left operand's array. -/
theorem V_lhs (c : Dev nD) :
    V m c main_v0 = shapeCast S16384x4096 (m ((c : Thread nD τ).loc main_arg0)) shapeCasts_S4x4096x4096_S16384x4096 := by
  show StableHlo.after hostOps0 (fun b => m (c, b)) (Proc.devRef .tc main_v0) = _
  after_results
  rfl

/-- The region finds the matrix as launched. -/
theorem V_rhs (c : Dev nD) : V m c main_arg1 = m ((c : Thread nD τ).loc main_arg1) := V_main_arg1 m c

/-- The region finds the scale vector viewed as a row in the scale window's array. -/
theorem V_scale (c : Dev nD) :
    V m c main_v1 = shapeCast S1x4096 (m ((c : Thread nD τ).loc main_arg2)) shapeCasts_S4096_S1x4096 := by
  show StableHlo.after hostOps0 (fun b => m (c, b)) (Proc.devRef .tc main_v1) = _
  after_results
  rfl

/-- Row `b * 4096 + r` of the flattened array is `x (b, r, ·)`. -/
theorem flatten_apply {α : Type} (x : S4x4096x4096.Idx → α) (b : Fin 4) (r : Fin 4096) (h : Fin 4096) (row : Fin 16384)
    (hrow : row.val = b.val * 4096 + r.val) :
    shapeCast S16384x4096 x shapeCasts_S4x4096x4096_S16384x4096 (ix2 row h) = x (ix3 b r h) := by
  refine shapeCast_apply x _ (ix2 row h) (ix3 b r h) ?_
  rw [Shape.rowMajor_val_three, Shape.rowMajor_val_two]
  show (b.val * 4096 + r.val) * 4096 + h.val = row.val * 4096 + h.val
  rw [hrow]

/-- Entry (0, n) of the row view is the vector's entry n. -/
theorem row_apply {α : Type} (s : S4096.Idx → α) (n : Fin 4096) :
    shapeCast S1x4096 s shapeCasts_S4096_S1x4096 (ix2 (0 : Fin 1) n) = s (ix1 n) := by
  refine shapeCast_apply s _ (ix2 (0 : Fin 1) n) (ix1 n) ?_
  rw [Shape.rowMajor_val_one, Shape.rowMajor_val_two]
  show n.val = 0 * 4096 + n.val
  omega

end Cert.KernelIdeal.Blocks

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.Spec.lean ====
/-
  The common value of both programs, and the law that joins a blocked contraction to the whole one.

  Both programs compute, for a [4, 4096, 4096] array `x`, a [4096, 4096] matrix `R` and a [4096] vector `s`,
      out (b, r, n) = s n * ∑ h < 4096, x (b, r, h) * R (h, n).
  The kernel flattens the two leading axes into 16384 rows, cuts the contraction into 8 runs of 512 coordinates,
  starts from 0 and adds one run's partial product at a time, and multiplies by the scale on the right at the end.
  On the extended reals addition is associative and commutative and multiplication is commutative, with no
  finiteness needed: so `0 + ∑ run < 8, ∑ kk < 512, f (run * 512 + kk) = ∑ h < 4096, f h`, and the scale may stand
  on either side.
-/
import proofs.«171653_j80290118632068_1_alg».proof.Proof.LibGroupedSum
import Idealize.ShloMosaic.Lib.ValueIdx
import Idealize.ShloMosaic.PureOps.Ideal

noncomputable section

namespace Calib

open Idealize.ShloMosaic Idealize.ShloMosaic.ValueIdx

/-- The flattened form: a [16384, 4096] matrix times `R`, each column scaled by a [1, 4096] row. -/
def scaledProduct (X : (⟨2, ![16384, 4096]⟩ : Shape).Idx → EReal) (R : (⟨2, ![4096, 4096]⟩ : Shape).Idx → EReal)
    (S : (⟨2, ![1, 4096]⟩ : Shape).Idx → EReal) : (⟨2, ![16384, 4096]⟩ : Shape).Idx → EReal :=
  fun i => (∑ h : Fin 4096, X (ix2 (i 0) h) * R (ix2 h (i 1))) * S (ix2 (0 : Fin 1) (i 1))

/-- The result of both programs, entry by entry. -/
def result (x : (⟨3, ![4, 4096, 4096]⟩ : Shape).Idx → EReal) (R : (⟨2, ![4096, 4096]⟩ : Shape).Idx → EReal)
    (s : (⟨1, ![4096]⟩ : Shape).Idx → EReal) : (⟨3, ![4, 4096, 4096]⟩ : Shape).Idx → EReal :=
  fun i => s (ix1 (i 2)) * ∑ h : Fin 4096, x (ix3 (i 0) (i 1) h) * R (ix2 h (i 2))

/-- Starting from 0 and adding the 8 runs' partial sums one after the other gives the whole contraction. -/
theorem blocked_contraction (f : Fin 4096 → EReal) (g : ℕ → EReal)
    (hg : ∀ (s : Fin 8), g s.val = ∑ kk : Fin 512, f ⟨s.val * 512 + kk.val, GroupedSum.group_lt (J := 8) (B := 512) rfl s kk⟩) :
    (0 : EReal) + ∑ s ∈ Finset.range 8, g s = ∑ h : Fin 4096, f h := by
  rw [zero_add, Finset.sum_range, GroupedSum.sum_groups (J := 8) (B := 512) (K := 4096) rfl f]
  exact Finset.sum_congr rfl fun s _ => hg s

end Calib

end
-- ==== Proof.Region.lean ====
/-
  What the output array holds after the region: the flattened product, scaled column by column.

  A run's last point (`t % 8 = 7`) writes its output block back.  Entry (p, q) of that block is the accumulator's
  entry times the scale row's entry q.  The accumulator's entry is 0 plus the 8 partial products of the run, and
  the run's 8 points read the same 1024 rows of the left operand and the same 1024 columns of the right one while
  their contraction blocks tile the 4096 contracted coordinates, 512 at a time; so the accumulator's entry is the
  whole contraction at row `(t / 32) * 1024 + p` and column `(t / 8 % 4) * 1024 + q`, which is where the block's
  entry sits in the array.  The 64 written blocks tile the [16384, 4096] array.
-/
import proofs.«171653_j80290118632068_1_alg».proof.Proof.Fold
import proofs.«171653_j80290118632068_1_alg».proof.Proof.Blocks
import proofs.«171653_j80290118632068_1_alg».proof.Proof.Spec
import Idealize.ShloMosaic.Lib.Pipeline.Value

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The three input arrays as the region finds them, as functions on their literal index types. -/
def lhsArr (c : Dev nD) : S16384x4096.Idx → EReal := V m c main_v0
def rhsArr (c : Dev nD) : S4096x4096.Idx → EReal := V m c main_arg1
def rowArr (c : Dev nD) : S1x4096.Idx → EReal := V m c main_v1

/-- The output array's final contents, from the three arrays as the region finds them. -/
def G (c : Dev nD) : S16384x4096.Idx → EReal :=
  Calib.scaledProduct (lhsArr m c) (rhsArr m c) (rowArr m c)

/-- Entry (p, q) of the block a run's last point writes back is the array's entry at the block's place. -/
theorem out_entry (c : Dev nD) (t : Fin cfg0.N) (h7 : t.val % 8 = 7) (p q : Fin 1024) (r : Fin 16384) (n : Fin 4096)
    (hr : r.val = t.val / 32 * 1024 + p.val) (hn : n.val = t.val / 8 % 4 * 1024 + q.val) :
    (outsAt0 m c t.val t.isLt).1 (ix2 p q) = G m c (ix2 r n) := by
  have hN : cfg0.N = 512 := N_0
  have ht : t.val < 512 := lt_of_lt_of_eq t.isLt hN
  rw [Fold.out_last (F := Ideal) m c t h7]
  refine (Payload.scale_apply (outsAt0 m c t.val t.isLt).2 (Fold.rowBlk (F := Ideal) m c t.val t.isLt) p q).trans ?_
  rw [Fold.acc_last m c t.val t.isLt h7 (ix2 p q)]
  have hrow : Fold.rowBlk (F := Ideal) m c t.val t.isLt (ix2 (0 : Fin 1) q) = rowArr m c (ix2 (0 : Fin 1) n) :=
    Blocks.scale_block m c t q n hn
  rw [hrow]
  show _ = (∑ h : Fin 4096, lhsArr m c (ix2 r h) * rhsArr m c (ix2 h n)) * rowArr m c (ix2 (0 : Fin 1) n)
  refine congrArg (· * rowArr m c (ix2 (0 : Fin 1) n)) ?_
  refine Calib.blocked_contraction (fun h => lhsArr m c (ix2 r h) * rhsArr m c (ix2 h n)) _ (fun s => ?_)
  have hs8 : s.val < 8 := s.isLt
  have hs : 8 * (t.val / 8) + s.val < cfg0.N := by omega
  show Fold.partialAt m c (8 * (t.val / 8) + s.val) (ix2 p q)
    = ∑ kk : Fin 512, lhsArr m c (ix2 r ⟨s.val * 512 + kk.val, _⟩) * rhsArr m c (ix2 ⟨s.val * 512 + kk.val, _⟩ n)
  unfold Fold.partialAt
  rw [dif_pos hs]
  refine Finset.sum_congr rfl fun kk _ => ?_
  have hk : kk.val < 512 := kk.isLt
  exact congrArg₂ (· * ·)
    (Blocks.lhs_block m c ⟨8 * (t.val / 8) + s.val, hs⟩ p kk r ⟨s.val * 512 + kk.val, by omega⟩
      (by show r.val = (8 * (t.val / 8) + s.val) / 32 * 1024 + p.val; omega)
      (by show s.val * 512 + kk.val = (8 * (t.val / 8) + s.val) % 8 * 512 + kk.val; omega))
    (Blocks.rhs_block m c ⟨8 * (t.val / 8) + s.val, hs⟩ kk q ⟨s.val * 512 + kk.val, by omega⟩ n
      (by show s.val * 512 + kk.val = (8 * (t.val / 8) + s.val) % 8 * 512 + kk.val; omega)
      (by show n.val = (8 * (t.val / 8) + s.val) / 8 % 4 * 1024 + q.val; omega))

/-- The same for any entry of the block, read through the block's place in the array. -/
theorem block_entry (c : Dev nD) (t : Fin cfg0.N) (h7 : t.val % 8 = 7) (y : S1024x1024.Idx) :
    (outsAt0 m c t.val t.isLt).1 y = G m c (((cfg0.win 3).blk t).view.emb y) := by
  obtain ⟨p, q, rfl⟩ : ∃ (p q : Fin 1024), y = ix2 p q := ⟨y 0, y 1, eq_ix2 y⟩
  have hN : cfg0.N = 512 := N_0
  have ht : t.val < 512 := lt_of_lt_of_eq t.isLt hN
  have hp : p.val < 1024 := p.isLt
  have hq : q.val < 1024 := q.isLt
  rw [Blocks.out_block_emb t p q ⟨t.val / 32 * 1024 + p.val, by omega⟩ ⟨t.val / 8 % 4 * 1024 + q.val, by omega⟩ rfl rfl]
  exact out_entry m c t h7 p q _ _ rfl rfl

/-- What a run's last point writes back is its block of `G`. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3]
  funext y
  exact block_entry m c t h7 y

/-- An index of the array is in point `t`'s output block iff each coordinate is in the block's range. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Every index of the array is in the block some run's last point writes back. -/
theorem cover (i : S16384x4096.Idx) :
    ∃ t : Fin cfg0.N, (cfg0.win 3).flush t = true ∧ i ∈ ((cfg0.win 3).blk t).view.set := by
  have hN : cfg0.N = 512 := N_0
  have h0 : (i 0).val < 16384 := (i 0).isLt
  have h1 : (i 1).val < 4096 := (i 1).isLt
  have hlt : (i 0).val / 1024 * 32 + (i 1).val / 1024 * 8 + 7 < cfg0.N := by omega
  obtain ⟨-, -, -, -, -, -, e0, e1⟩ := Blocks.idx_facts ⟨_, hlt⟩
  have e0' : win0_3.index ⟨_, hlt⟩ (0 : Fin 2) = ((i 0).val / 1024 * 32 + (i 1).val / 1024 * 8 + 7) / 32 := e0
  have e1' : win0_3.index ⟨_, hlt⟩ (1 : Fin 2) = ((i 0).val / 1024 * 32 + (i 1).val / 1024 * 8 + 7) / 8 % 4 := e1
  refine ⟨⟨_, hlt⟩, (flush0_3 _).mpr (by show ((i 0).val / 1024 * 32 + (i 1).val / 1024 * 8 + 7) % 8 = 7; omega), ?_⟩
  rw [mem_blk]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0']; omega
  | ⟨1, _⟩ =>
    show win0_3.index ⟨_, hlt⟩ (1 : Fin 2) * 1024 ≤ (i 1).val ∧ (i 1).val < win0_3.index ⟨_, hlt⟩ (1 : Fin 2) * 1024 + 1024
    rw [e1']; omega

/-- So the output array ends holding `G`. -/
theorem final (c : Dev nD) : (dats m 0 c).arrAt 3 cfg0.N = G m c :=
  (dats m 0 c).arrAt_eq_of_cover 3 (G m c) (flushed_eq m c) cover

end Cert.KernelIdeal.Region

end
-- ==== Proof.KernelValue.lean ====
/-
  The kernel program's result, entry by entry, and its run.

  After the region the host folds the [16384, 4096] output array back to [4, 4096, 4096]: entry (b, r, n) is the
  array's entry (b * 4096 + r, n).  Before the region it flattened `x` the same way and viewed the scale vector
  as a row.  So the program's result at (b, r, n) is `(∑ h, x (b, r, h) * R (h, n)) * s n`, and, multiplication
  being commutative, the common value `s n * ∑ h, x (b, r, h) * R (h, n)`.
-/
import proofs.«171653_j80290118632068_1_alg».proof.Proof.Region
import Idealize.ShloMosaic.Lib.StableHlo.Run

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen

section AnyValues

variable {F : FTy → Type} [FloatOps F]
variable (m : (ℓ : Loc nD τ sig) → Buf (Elt F) ℓ)

/-- The host line after the region folds the output array back to three axes. -/
theorem tail_eq (c : Dev nD) :
    Pipeline.afterTail₀ cfgs (dats m) 0 (V0 m) [hostOps1] c main_v3
      = shapeCast S4x4096x4096 ((dats m 0 c).arrAt 3 cfg0.N) shapeCasts_S16384x4096_S4x4096x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [e]
  rfl

end AnyValues

section ExtendedReals

variable (m : (ℓ : Loc nD τ sig) → Buf (Elt Ideal) ℓ) (ρ : Dev nD → PrngReg)

/-- Entry (b * 4096 + r, n) of the output array is the common result's entry (b, r, n), for any three arrays that
    the region's input arrays read as the flattened `x`, the matrix and the scale row. -/
theorem result_at (c : Dev nD) (x : S4x4096x4096.Idx → EReal) (R : S4096x4096.Idx → EReal) (s : S4096.Idx → EReal)
    (b : Fin 4) (r : Fin 4096) (n : Fin 4096) (row : Fin 16384)
    (e0 : ∀ h : Fin 4096, Region.lhsArr m c (ix2 row h) = x (ix3 b r h))
    (e1 : ∀ h : Fin 4096, Region.rhsArr m c (ix2 h n) = R (ix2 h n))
    (e2 : Region.rowArr m c (ix2 (0 : Fin 1) n) = s (ix1 n)) :
    Region.G m c (ix2 row n) = Calib.result x R s (ix3 b r n) := by
  show (∑ h : Fin 4096, Region.lhsArr m c (ix2 row h) * Region.rhsArr m c (ix2 h n)) * Region.rowArr m c (ix2 (0 : Fin 1) n)
    = s (ix1 n) * ∑ h : Fin 4096, x (ix3 b r h) * R (ix2 h n)
  rw [mul_comm, e2]
  simp only [e0, e1]

/-- The folded output array is the common result of the two programs. -/
theorem result_eq (c : Dev nD) :
    shapeCast S4x4096x4096 (Region.G m c) shapeCasts_S16384x4096_S4x4096x4096
      = Calib.result (m ((c.tc : Thread nD τ).loc main_arg0)) (m ((c.tc : Thread nD τ).loc main_arg1)) (m ((c.tc : Thread nD τ).loc main_arg2)) := by
  funext i
  obtain ⟨b, r, n, rfl⟩ : ∃ (b : Fin 4) (r : Fin 4096) (n : Fin 4096), i = ix3 b r n := ⟨i 0, i 1, i 2, eq_ix3 i⟩
  have hb : b.val < 4 := b.isLt
  have hr : r.val < 4096 := r.isLt
  refine (shapeCast_apply (Region.G m c) _ (ix3 b r n) (ix2 (⟨b.val * 4096 + r.val, by omega⟩ : Fin 16384) n) ?_).trans ?_
  · rw [Shape.rowMajor_val_two, Shape.rowMajor_val_three]
    rfl
  · refine result_at m c _ _ _ b r n _ (fun h => ?_) (fun h => ?_) ?_
    · unfold Region.lhsArr
      rw [Blocks.V_lhs]
      exact Blocks.flatten_apply _ b r h _ rfl
    · unfold Region.rhsArr
      rw [Blocks.V_rhs]
    · unfold Region.rowArr
      rw [Blocks.V_scale]
      exact Blocks.row_apply _ n

/-- Every weakly fair execution of the kernel program ends with the result array at the common value and the
    arguments unchanged. -/
theorem run : θ_run defs (onTc (τ := τ) (main (F := Ideal))) ⟨m, fun _ => 0, ρ⟩ (fun r => ∀ c : Dev nD,
      r.2.mem ((c.tc : Thread nD τ).loc main_v3) = Calib.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 (by decide) (by decide))).trans
        ((tail_eq m c).trans ((congrArg (fun A => shapeCast S4x4096x4096 A shapeCasts_S16384x4096_S4x4096x4096)
          (Region.final m c)).trans (result_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end ExtendedReals

end Cert.KernelIdeal.KernelValue

end
-- ==== Proof.RefValue.lean ====
/-
  The reference's result, entry by entry.

  The reference contracts the last axis of `x` with the first axis of `R` in one product, broadcasts the scale
  vector along the two leading axes, and multiplies: at entry (b, r, n) it is `s n * ∑ h, x (b, r, h) * R (h, n)`.
-/
import proofs.«171653_j80290118632068_1_alg».proof.Proof.Gen.ReferenceIdeal.Read
import proofs.«171653_j80290118632068_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read

/-- The reference's last stage is the common result of the two programs. -/
theorem reference_eq (x0 : (⟨S4x4096x4096, .f32⟩ : BufTy).Contents (Elt Ideal))
    (x1 : (⟨S4096x4096, .f32⟩ : BufTy).Contents (Elt Ideal)) (x2 : (⟨S4096, .f32⟩ : BufTy).Contents (Elt Ideal)) :
    val_main_v3 (F := Ideal) x0 x1 x2 = Calib.result x0 x1 x2 := by
  funext i
  have e1 : idx_main_v1 (idx_main_v2 i) = ix1 (i 2) :=
    funext fun a => Fin.ext (by match a with | ⟨0, _⟩ => rfl)
  have e2 : ∀ k : Fin 4096, lidx_main_v0 i k = ix3 (i 0) (i 1) k := fun k =>
    funext fun a => Fin.ext (by match a with | ⟨0, _⟩ => rfl | ⟨1, _⟩ => rfl | ⟨2, _⟩ => rfl)
  have e3 : ∀ k : Fin 4096, ridx_main_v0 i k = ix2 k (i 2) := fun k =>
    funext fun a => Fin.ext (by match a with | ⟨0, _⟩ => rfl | ⟨1, _⟩ => rfl)
  rw [val_main_v3_apply, val_main_v2_apply, val_main_v1_apply, val_main_v0_apply]
  simp only [e1, e2, e3, Ideal.mulf_def]
  rfl

end Cert.ReferenceIdeal.RefValue

end
-- ==== Proof.lean ====
/-
  A tiled matrix product with a fused column scale against one whole product.

  The kernel flattens `x` : [4, 4096, 4096] to 16384 rows, multiplies by `R` : [4096, 4096] in 1024 × 1024 output
  blocks, contracting 512 coordinates per grid point into an accumulator that starts from 0, and at the last
  contraction step multiplies the accumulated block by the scale row `s`; the host folds the result back to
  [4, 4096, 4096].  The reference computes `s n * ∑ h, x (b, r, h) * R (h, n)` in one product.  On the extended
  reals a change of float format is the identity, addition is associative and commutative and multiplication is
  commutative, so the two results are the same function of the arguments; no finiteness of the inputs is used.

  The three frames are the generated ones (the reference's is its generated run with the result dropped); the
  idealization rewrote nothing, so it is preserved trivially; the value claim pairs the kernel program's run
  (its output array read block by block, each block the fold of its contraction run) with the reference's run.
-/
import proofs.«171653_j80290118632068_1_alg».proof.Proof.Gen.Kernel.Frame
import proofs.«171653_j80290118632068_1_alg».proof.Proof.Gen.Pre_finite_inputs
import proofs.«171653_j80290118632068_1_alg».proof.Proof.KernelValue
import proofs.«171653_j80290118632068_1_alg».proof.Proof.RefValue
import proofs.«171653_j80290118632068_1_alg».proof.Defs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `s n * ∑ h, x (b, r, h) * R (h, n)` of arguments that agree. -/
theorem algebraic : Cert.algebraic_KernelIdeal_ReferenceIdeal := by
  intro m ρ m' ρ' _ hagree
  refine ⟨fun c => Calib.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
